-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S4096x1 : Shape := ⟨2, ![4096, 1]⟩
abbrev S257x40960 : Shape := ⟨2, ![257, 40960]⟩
abbrev S257 : Shape := ⟨1, ![257]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S257x40960 : S_.BroadcastsInDim S257x40960 (![] : Fin 0 → Fin S257x40960.rank)
  reducesTo_S257x40960_S_d0_1 : S257x40960.ReducesTo [0, 1] S_
  bcast_S_S257 : S_.BroadcastsInDim S257 (![] : Fin 0 → Fin S257.rank)
  reducesTo_S257_S_d0 : S257.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32x32 .f32) (main_arg8 : FVec F S32 .f32) (main_arg9 : FVec F S1x32 .f32) (main_arg10 : FVec F S1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S257 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) (main_v13 : IVec S_ 1) (main_v16 : IVec S257x40960 1) : IVec S_ 1 :=
  let main_c_5 : IVec S_ 1 := constantI S_ 1 1#1
  let main_v17 : IVec S_ 1 := (fun x v => Host.reduce IntOp.andi x v reducesTo_S257x40960_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  let main_v24 : FVec F S32x512 .f32 := Host.absf main_arg5
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x40960 .f32) (main_arg1 : FVec F S4096x40960 .f32) (main_arg2 : FVec F S4096x1 .f32) (main_arg3 : FVec F S257x40960 .f32) (main_arg4 : FVec F S257 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S257x40960 .f32 := Host.absf main_arg3
  let main_cst_4 : FVec F S_ .f32 := constant S_ .f32 0x7F800000#32
  let main_v15 : FVec F S257x40960 .f32 := broadcastInDim S257x40960 ![] bcast_S_S257x40960 main_cst_4
  let main_v16 : IVec S257x40960 1 := cmpf .olt main_v14 main_v15
  fn_part1 (F := F) main_arg4 main_arg5 main_arg6 main_arg7 main_arg8 main_arg9 main_arg10 main_v13 main_v16
-- ==== Kernel.lean ====
abbrev S4096x40960 : Shape := ⟨2, ![4096, 40960]⟩
abbrev S4096x1 : Shape := ⟨2, ![4096, 1]⟩
abbrev S257x40960 : Shape := ⟨2, ![257, 40960]⟩
abbrev S257 : Shape := ⟨1, ![257]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x257 : Shape := ⟨2, ![40960, 257]⟩
abbrev S1x257 : Shape := ⟨2, ![1, 257]⟩
abbrev S4096x257 : Shape := ⟨2, ![4096, 257]⟩
abbrev S2048x512 : Shape := ⟨2, ![2048, 512]⟩
abbrev S512x257 : Shape := ⟨2, ![512, 257]⟩
abbrev S2048x257 : Shape := ⟨2, ![2048, 257]⟩
abbrev S4096x256 : Shape := ⟨2, ![4096, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 74
  | .vmem => 13
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S257x40960, .f32⟩
  | .hbm, ⟨4, _⟩ => ⟨S257, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S40960x257, .f32⟩
  | .hbm, ⟨12, _⟩ => ⟨S1x257, .f32⟩
  | .hbm, ⟨13, _⟩ => ⟨S4096x257, .f32⟩
  | .hbm, ⟨14, _⟩ => ⟨S4096x257, .f32⟩
  | .hbm, ⟨15, _⟩ => ⟨S4096x256, .f32⟩
  | .hbm, ⟨16, _⟩ => ⟨S4096x1, .f32⟩
  | .hbm, ⟨17, _⟩ => ⟨S4096x256, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x32, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x1, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x257, .f32⟩
  | .local _ .vmem, ⟨5, _⟩ => ⟨S512x257, .f32⟩
  | .local _ .vmem, ⟨6, _⟩ => ⟨S1x257, .f32⟩
  | .local _ .vmem, ⟨7, _⟩ => ⟨S2048x257, .f32⟩
  | .local _ .vmem, ⟨8, _⟩ => ⟨S2048x257, .f32⟩
  | .local _ .vmem, ⟨9, _⟩ => ⟨S2048x257, .f32⟩
  | .local _ .vmem, ⟨10, _⟩ => ⟨S2048x257, .f32⟩
  | .local _ .vmem, ⟨11, _⟩ => ⟨S2048x257, .f32⟩
  | .local _ .vmem, ⟨12, _⟩ => ⟨S2048x257, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 80], ![false, false]⟩

def k0_cond2 (i : grid0.Coords) : BitVec 1 :=
  let arg1 : BitVec 32 := BitVec.ofNat 32 (i 1).val
  let c79_i32 : BitVec 32 := 79#32
  let v22 : BitVec 1 := Scalar.cmpi .eq arg1 c79_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S257x40960_S40960x257_1_0 : S257x40960.Transposes [1, 0] S40960x257
  shapeCasts_S257_S1x257 : S257.ShapeCasts S1x257
  inb_S2048x257_S2048x257_0_0 : ∀ a, (![0, 0] : Fin 2 → Nat) a + S2048x257.size a ≤ S2048x257.size a
  h_S2048x257 : 0 < S2048x257.numel
  shapeCasts_S2048x257_S2048x257 : S2048x257.ShapeCasts S2048x257
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x257_S512x257_0_0 : ∀ a, (![0, 0] : Fin 2 → Nat) a + S512x257.size a ≤ S512x257.size a
  h_S512x257 : 0 < S512x257.numel
  shapeCasts_S512x257_S512x257 : S512x257.ShapeCasts S512x257
  inb_S1x257_S1x257_0_0 : ∀ a, (![0, 0] : Fin 2 → Nat) a + S1x257.size a ≤ S1x257.size a
  h_S1x257 : 0 < S1x257.numel
  shapeCasts_S1x257_S1x257 : S1x257.ShapeCasts S1x257
  broadcasts_S1x257_S2048x257 : S1x257.Broadcasts S2048x257
  slices_S4096x257_S4096x256_0_0 : S4096x257.Slices ![0, 0] S4096x256
  slices_S4096x257_S4096x1_0_256 : S4096x257.Slices ![0, 256] S4096x1
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S2048x512_S512x257_S2048x257_1_0_0_1_n_n_wf : DotDims.WF S2048x512 S512x257 S2048x257 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x40960.size a
  hwx0_0 : ∀ i : grid0.Coords, EltTy.bits .f32 = 32 ∨ (Rect.block (s := S4096x40960) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x40960.size a
  hwx0_1 : ∀ i : grid0.Coords, EltTy.bits .f32 = 32 ∨ (Rect.block (s := S4096x40960) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x257.size a ≤ S40960x257.size a
  hwx0_2 : ∀ i : grid0.Coords, EltTy.bits .f32 = 32 ∨ (Rect.block (s := S40960x257) S512x257.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x257.size a ≤ S1x257.size a
  hwx0_3 : ∀ i : grid0.Coords, EltTy.bits .f32 = 32 ∨ (Rect.block (s := S1x257) S1x257.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x257.size a ≤ S4096x257.size a
  hwx0_4 : ∀ i : grid0.Coords, EltTy.bits .f32 = 32 ∨ (Rect.block (s := S4096x257) S2048x257.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x257.size a ≤ S4096x257.size a
  hwx0_5 : ∀ i : grid0.Coords, EltTy.bits .f32 = 32 ∨ (Rect.block (s := S4096x257) S2048x257.size (cc0_transform_5 i) (hinb0_5 i)).WholeWords (EltTy.packing .f32)

variable [Facts₀]

def dot_S2048x512_S512x257_S2048x257_1_0_0_1_n_n : DotDims S2048x512 S512x257 S2048x257 where
  lhsContracting := [1]
  rhsContracting := [0]
  lhsNonContracting := [0]
  rhsNonContracting := [1]
  lhsBatch := []
  rhsBatch := []
  wf := dot_S2048x512_S512x257_S2048x257_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x257.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048x257.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x257.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x40960 : Shape := ⟨2, ![4096, 40960]⟩
abbrev S4096x1 : Shape := ⟨2, ![4096, 1]⟩
abbrev S257x40960 : Shape := ⟨2, ![257, 40960]⟩
abbrev S257 : Shape := ⟨1, ![257]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x257 : Shape := ⟨2, ![40960, 257]⟩
abbrev S4096x257 : Shape := ⟨2, ![4096, 257]⟩
abbrev S1x257 : Shape := ⟨2, ![1, 257]⟩
abbrev S4096x256 : Shape := ⟨2, ![4096, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S257x40960, .f32⟩
  | .hbm, ⟨4, _⟩ => ⟨S257, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S40960x257, .f32⟩
  | .hbm, ⟨12, _⟩ => ⟨S4096x257, .f32⟩
  | .hbm, ⟨13, _⟩ => ⟨S1x257, .f32⟩
  | .hbm, ⟨14, _⟩ => ⟨S4096x257, .f32⟩
  | .hbm, ⟨15, _⟩ => ⟨S4096x257, .f32⟩
  | .hbm, ⟨16, _⟩ => ⟨S40960x257, .f32⟩
  | .hbm, ⟨17, _⟩ => ⟨S4096x257, .f32⟩
  | .hbm, ⟨18, _⟩ => ⟨S1x257, .f32⟩
  | .hbm, ⟨19, _⟩ => ⟨S4096x257, .f32⟩
  | .hbm, ⟨20, _⟩ => ⟨S4096x257, .f32⟩
  | .hbm, ⟨21, _⟩ => ⟨S4096x256, .f32⟩
  | .hbm, ⟨22, _⟩ => ⟨S4096x1, .f32⟩
  | .hbm, ⟨23, _⟩ => ⟨S4096x256, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S512x32, .f32⟩
  | .hbm, ⟨44, _⟩ => ⟨S4096x32, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x32, .f32⟩
  | .hbm, ⟨52, _⟩ => ⟨S4096x32, .f32⟩
  | .hbm, ⟨53, _⟩ => ⟨S_, .f32⟩
  | .hbm, ⟨54, _⟩ => ⟨S4096x32, .f32⟩
  | .hbm, ⟨55, _⟩ => ⟨S4096x32, .f32⟩
  | .hbm, ⟨56, _⟩ => ⟨S32x32, .f32⟩
  | .hbm, ⟨57, _⟩ => ⟨S4096x32, .f32⟩
  | .hbm, ⟨58, _⟩ => ⟨S1x32, .f32⟩
  | .hbm, ⟨59, _⟩ => ⟨S4096x32, .f32⟩
  | .hbm, ⟨60, _⟩ => ⟨S4096x32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096x32, .f32⟩
  | .hbm, ⟨65, _⟩ => ⟨S4096x32, .f32⟩
  | .hbm, ⟨66, _⟩ => ⟨S_, .f32⟩
  | .hbm, ⟨67, _⟩ => ⟨S4096x32, .f32⟩
  | .hbm, ⟨68, _⟩ => ⟨S4096x32, .f32⟩
  | .hbm, ⟨69, _⟩ => ⟨S32x1, .f32⟩
  | .hbm, ⟨70, _⟩ => ⟨S4096x1, .f32⟩
  | .hbm, ⟨71, _⟩ => ⟨S1x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_cst_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩

abbrev nD : Nat := 1
abbrev τ : Topo := Topo.v7x

variable {F : FTy → Type} [FloatOps F]

class Facts₀ : Prop where
  transposes_S257x40960_S40960x257_1_0 : S257x40960.Transposes [1, 0] S40960x257
  bcast_S257_S1x257_1 : S257.BroadcastsInDim S1x257 (![1] : Fin 1 → Fin S1x257.rank)
  bcast_S1x257_S4096x257_0_1 : S1x257.BroadcastsInDim S4096x257 (![0, 1] : Fin 2 → Fin S4096x257.rank)
  slices_S4096x257_S4096x256_0_0 : S4096x257.Slices ![0, 0] S4096x256
  slices_S4096x257_S4096x1_0_256 : S4096x257.Slices ![0, 256] S4096x1
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x257_S4096x257_1_0_0_1_n_n_wf : DotDims.WF S4096x40960 S40960x257 S4096x257 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x257_S4096x257_1_0_0_1_n_n : DotDims S4096x40960 S40960x257 S4096x257 where
  lhsContracting := [1]
  rhsContracting := [0]
  lhsNonContracting := [0]
  rhsNonContracting := [1]
  lhsBatch := []
  rhsBatch := []
  wf := dot_S4096x40960_S40960x257_S4096x257_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Pieces.lean ====
/-
  What the body leaves behind at a grid point, as values.  The run of the body found, per case of its two
  conditionals, the stores each buffer ends with; read back, they are the body's arithmetic of the blocks it
  loaded.  At a first feature step (case A) each accumulator is zeroed and then takes its block product, so it
  ends at "zero plus the product"; at every later step (cases B and C) it ends at "what the step before left plus
  the product"; and at the last feature step (case C) each output block is that accumulator plus the bias row.
  All of this holds for any float instance.
-/
import proofs.«113688_j71141838291202_1_alg».proof.Proof.Gen.KernelIdeal.Frame
import Idealize.ShloMosaic.Lib.Pipeline.Value
import Idealize.ShloMosaic.Lib.Tactic

noncomputable section

namespace Cert.FT

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- First feature step: the first accumulator ends at the zero block plus its block product. -/
theorem accA0 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : cond0_0 i) (hc1 : ¬cond0_1 i)
    (x0 : Vec F S2048x512 .f32) (x1 : Vec F S2048x512 .f32) (x2 : Vec F S512x257 .f32) (x3 : Vec F S1x257 .f32) :
    sout0_A_0 c i a2 h2 a3 h3 a4 h4 a5 h5 a6 h6 a7 h7 a8 h8 a9 h9 hc0 hc1 x0 x1 x2 x3 = k0_pay4 x0 x2 (k0_pay1 (F := F)) := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S2048x257) hz, View.readCov_unit_zero (S := S2048x257) _ hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

/-- First feature step: the second accumulator likewise. -/
theorem accA1 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : cond0_0 i) (hc1 : ¬cond0_1 i)
    (x0 : Vec F S2048x512 .f32) (x1 : Vec F S2048x512 .f32) (x2 : Vec F S512x257 .f32) (x3 : Vec F S1x257 .f32) :
    sout0_A_1 c i a2 h2 a3 h3 a4 h4 a5 h5 a6 h6 a7 h7 a8 h8 a9 h9 hc0 hc1 x0 x1 x2 x3 = k0_pay5 x1 x2 (k0_pay2 (F := F)) := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S2048x257) hz, View.readCov_unit_zero (S := S2048x257) _ hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

/-- A middle feature step: the first accumulator ends at what it held plus its block product. -/
theorem accB0 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : ¬cond0_1 i)
    (x0 : Vec F S2048x512 .f32) (x1 : Vec F S2048x512 .f32) (x2 : Vec F S512x257 .f32) (x3 : Vec F S1x257 .f32) (xs0 xs1 : Vec F S2048x257 .f32) :
    sout0_B_0 c i a2 h2 a3 h3 a4 h4 a5 h5 a6 h6 a7 h7 a8 h8 a9 h9 hc0 hc1 x0 x1 x2 x3 xs0 xs1 = k0_pay4 x0 x2 xs0 := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

/-- A middle feature step: the second accumulator likewise. -/
theorem accB1 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : ¬cond0_1 i)
    (x0 : Vec F S2048x512 .f32) (x1 : Vec F S2048x512 .f32) (x2 : Vec F S512x257 .f32) (x3 : Vec F S1x257 .f32) (xs0 xs1 : Vec F S2048x257 .f32) :
    sout0_B_1 c i a2 h2 a3 h3 a4 h4 a5 h5 a6 h6 a7 h7 a8 h8 a9 h9 hc0 hc1 x0 x1 x2 x3 xs0 xs1 = k0_pay5 x1 x2 xs1 := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

/-- The last feature step: the accumulators step as in the middle, -/
theorem accC0 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : cond0_1 i)
    (x0 : Vec F S2048x512 .f32) (x1 : Vec F S2048x512 .f32) (x2 : Vec F S512x257 .f32) (x3 : Vec F S1x257 .f32) (xs0 xs1 : Vec F S2048x257 .f32) :
    sout0_C_0 c i a2 h2 a3 h3 a4 h4 a5 h5 a6 h6 a7 h7 a8 h8 a9 h9 hc0 hc1 x0 x1 x2 x3 xs0 xs1 = k0_pay4 x0 x2 xs0 := by
  unfold sout0_C_0
  rw [View.read_writes_eq_canon _ _ _ (scover0_C_0 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

theorem accC1 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : cond0_1 i)
    (x0 : Vec F S2048x512 .f32) (x1 : Vec F S2048x512 .f32) (x2 : Vec F S512x257 .f32) (x3 : Vec F S1x257 .f32) (xs0 xs1 : Vec F S2048x257 .f32) :
    sout0_C_1 c i a2 h2 a3 h3 a4 h4 a5 h5 a6 h6 a7 h7 a8 h8 a9 h9 hc0 hc1 x0 x1 x2 x3 xs0 xs1 = k0_pay5 x1 x2 xs1 := by
  unfold sout0_C_1
  rw [View.read_writes_eq_canon _ _ _ (scover0_C_1 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

/-- and each output block is its accumulator, after this step, plus the bias row. -/
theorem outC4 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : cond0_1 i)
    (x0 : Vec F S2048x512 .f32) (x1 : Vec F S2048x512 .f32) (x2 : Vec F S512x257 .f32) (x3 : Vec F S1x257 .f32) (xs0 xs1 : Vec F S2048x257 .f32) :
    out0_C_4 c i a2 h2 a3 h3 a4 h4 a5 h5 a6 h6 a7 h7 a8 h8 a9 h9 hc0 hc1 x0 x1 x2 x3 xs0 xs1 = k0_pay6 (k0_pay4 x0 x2 xs0) x3 := by
  unfold out0_C_4
  rw [View.read_writes_eq_canon _ _ _ (cover0_C_4 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz, View.readCov_unit_zero (S := S2048x257) _ hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

theorem outC5 (c : Dev nD) (i : grid0.Coords) (a2 : Memref sig .tc .vmem S2048x512 .f32) (h2 : a2.IsWhole) (a3 : Memref sig .tc .vmem S2048x512 .f32) (h3 : a3.IsWhole) (a4 : Memref sig .tc .vmem S512x257 .f32) (h4 : a4.IsWhole) (a5 : Memref sig .tc .vmem S1x257 .f32) (h5 : a5.IsWhole) (a6 : Memref sig .tc .vmem S2048x257 .f32) (h6 : a6.IsWhole) (a7 : Memref sig .tc .vmem S2048x257 .f32) (h7 : a7.IsWhole) (a8 : Memref sig .tc .vmem S2048x257 .f32) (h8 : a8.IsWhole) (a9 : Memref sig .tc .vmem S2048x257 .f32) (h9 : a9.IsWhole) (hc0 : ¬cond0_0 i) (hc1 : cond0_1 i)
    (x0 : Vec F S2048x512 .f32) (x1 : Vec F S2048x512 .f32) (x2 : Vec F S512x257 .f32) (x3 : Vec F S1x257 .f32) (xs0 xs1 : Vec F S2048x257 .f32) :
    out0_C_5 c i a2 h2 a3 h3 a4 h4 a5 h5 a6 h6 a7 h7 a8 h8 a9 h9 hc0 hc1 x0 x1 x2 x3 xs0 xs1 = k0_pay7 (k0_pay5 x1 x2 xs1) x3 := by
  unfold out0_C_5
  rw [View.read_writes_eq_canon _ _ _ (cover0_C_5 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz, View.readCov_unit_zero (S := S2048x257) _ hz]
  simp only [View.readAt_eq_ld, h2.read_unread, h3.read_unread, h4.read_unread, h5.read_unread, h8.read_unread, h9.read_unread, View.ld_unit_zero (S := S2048x512) hz, View.ld_unit_zero (S := S512x257) hz, View.ld_unit_zero (S := S2048x257) hz, View.ld_unit_zero (S := S1x257) hz]

end Cert.FT

end
-- ==== Proof.Payload.lean ====
/-
  The body's arithmetic, read at one index over the extended reals.  A grid point holds a [2048, 512] block `x`
  of a feature matrix, a [512, 257] block `w` of the transposed weights and a [2048, 257] accumulator; the body
  adds to the accumulator, at row `r` and column `j`, the partial contraction `∑ₖ x[r, k] · w[k, j]` over the
  block's 512 features (the casts to bf16 around the product are the identity on exact values, and the product's
  own zero accumulator contributes nothing).  The reset stores zero; the last point adds the bias row.
-/
import proofs.«113688_j71141838291202_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.FT

open Idealize.ShloMosaic Idealize.ShloMosaic.ValueIdx Cert.KernelIdeal Cert.KernelIdeal.Gen

/-- The block product's operand coordinates: the left operand is read at the output's row and the contracted
    feature, the right operand at the contracted feature and the output's column. -/
theorem blockDot_lhs0 (i : S2048x257.Idx) (q : dot_S2048x512_S512x257_S2048x257_1_0_0_1_n_n.contr.Idx) :
    (dot_S2048x512_S512x257_S2048x257_1_0_0_1_n_n.lhsIdx i q 0).val = (i 0).val := by
  unfold DotDims.lhsIdx
  rw [dif_neg (show ¬(0 : Fin S2048x512.rank) ∈ dot_S2048x512_S512x257_S2048x257_1_0_0_1_n_n.lhsBatch by decide), dif_pos (show (0 : Fin S2048x512.rank) ∈ dot_S2048x512_S512x257_S2048x257_1_0_0_1_n_n.lhsNonContracting by decide)]
  rfl
theorem blockDot_lhs1 (i : S2048x257.Idx) (q : dot_S2048x512_S512x257_S2048x257_1_0_0_1_n_n.contr.Idx) :
    (dot_S2048x512_S512x257_S2048x257_1_0_0_1_n_n.lhsIdx i q 1).val = (q ⟨0, by decide⟩).val :=
  dot_S2048x512_S512x257_S2048x257_1_0_0_1_n_n.lhsIdx_val_of_single rfl i q
theorem blockDot_rhs0 (i : S2048x257.Idx) (q : dot_S2048x512_S512x257_S2048x257_1_0_0_1_n_n.contr.Idx) :
    (dot_S2048x512_S512x257_S2048x257_1_0_0_1_n_n.rhsIdx i q 0).val = (q ⟨0, by decide⟩).val :=
  dot_S2048x512_S512x257_S2048x257_1_0_0_1_n_n.rhsIdx_val_of_single rfl i q
theorem blockDot_rhs1 (i : S2048x257.Idx) (q : dot_S2048x512_S512x257_S2048x257_1_0_0_1_n_n.contr.Idx) :
    (dot_S2048x512_S512x257_S2048x257_1_0_0_1_n_n.rhsIdx i q 1).val = (i 1).val := by
  unfold DotDims.rhsIdx
  rw [dif_neg (show ¬(1 : Fin S512x257.rank) ∈ dot_S2048x512_S512x257_S2048x257_1_0_0_1_n_n.rhsBatch by decide), dif_pos (show (1 : Fin S512x257.rank) ∈ dot_S2048x512_S512x257_S2048x257_1_0_0_1_n_n.rhsNonContracting by decide)]
  rfl

/-- The block product at `(r, j)`: the contraction over the block's 512 features. -/
theorem blockDot_apply (x : FVec Ideal S2048x512 .bf16) (w : FVec Ideal S512x257 .bf16) (r : Fin 2048) (j : Fin 257) :
    matmul (F := Ideal) dot_S2048x512_S512x257_S2048x257_1_0_0_1_n_n none x w (constant (F := Ideal) S2048x257 .f32 0x00000000#32) (ix2 r j)
      = ∑ k : Fin 512, x (ix2 r k) * w (ix2 k j) := by
  refine (Ideal.matmul_constant_zero_apply dot_S2048x512_S512x257_S2048x257_1_0_0_1_n_n none x w (ix2 r j)).trans ?_
  rw [← Equiv.sum_comp (ValueIdx.contrEquiv1 dot_S2048x512_S512x257_S2048x257_1_0_0_1_n_n 512 rfl rfl).symm]
  refine Finset.sum_congr rfl fun k _ => ?_
  have hk := ValueIdx.contrEquiv1_symm_val dot_S2048x512_S512x257_S2048x257_1_0_0_1_n_n 512 rfl rfl k
  have el : dot_S2048x512_S512x257_S2048x257_1_0_0_1_n_n.lhsIdx (ix2 r j) ((ValueIdx.contrEquiv1 dot_S2048x512_S512x257_S2048x257_1_0_0_1_n_n 512 rfl rfl).symm k) = ix2 r k :=
    funext fun a => Fin.ext (by
      match a with
      | ⟨0, _⟩ => exact blockDot_lhs0 _ _
      | ⟨1, _⟩ => exact (blockDot_lhs1 _ _).trans hk)
  have er : dot_S2048x512_S512x257_S2048x257_1_0_0_1_n_n.rhsIdx (ix2 r j) ((ValueIdx.contrEquiv1 dot_S2048x512_S512x257_S2048x257_1_0_0_1_n_n 512 rfl rfl).symm k) = ix2 k j :=
    funext fun a => Fin.ext (by
      match a with
      | ⟨0, _⟩ => exact (blockDot_rhs0 _ _).trans hk
      | ⟨1, _⟩ => exact blockDot_rhs1 _ _)
  rw [el, er]

/-- The reset's payload is zero everywhere. -/
theorem pay1_apply (i : S2048x257.Idx) : k0_pay1 (F := Ideal) i = 0 := by
  unfold k0_pay1
  rw [shapeCast_self]
  exact Ideal.ofBits_zero_f32

theorem pay2_apply (i : S2048x257.Idx) : k0_pay2 (F := Ideal) i = 0 := by
  unfold k0_pay2
  rw [shapeCast_self]
  exact Ideal.ofBits_zero_f32

/-- The accumulation step of the first accumulator at `(r, j)`. -/
theorem pay4_apply (x : Vec Ideal S2048x512 .f32) (w : Vec Ideal S512x257 .f32) (acc : Vec Ideal S2048x257 .f32)
    (r : Fin 2048) (j : Fin 257) :
    k0_pay4 (F := Ideal) x w acc (ix2 r j) = acc (ix2 r j) + ∑ k : Fin 512, x (ix2 r k) * w (ix2 k j) := by
  unfold k0_pay4 k0_pay3
  rw [shapeCast_self, shapeCast_self]
  exact congrArg (acc (ix2 r j) + ·) (blockDot_apply _ _ r j)

/-- The accumulation step of the second accumulator at `(r, j)`. -/
theorem pay5_apply (x : Vec Ideal S2048x512 .f32) (w : Vec Ideal S512x257 .f32) (acc : Vec Ideal S2048x257 .f32)
    (r : Fin 2048) (j : Fin 257) :
    k0_pay5 (F := Ideal) x w acc (ix2 r j) = acc (ix2 r j) + ∑ k : Fin 512, x (ix2 r k) * w (ix2 k j) := by
  unfold k0_pay5 k0_pay3
  rw [shapeCast_self, shapeCast_self]
  exact congrArg (acc (ix2 r j) + ·) (blockDot_apply _ _ r j)

/-- The last point's output at `(r, j)`: the accumulator plus the bias row's entry `j`. -/
theorem pay6_apply (acc : Vec Ideal S2048x257 .f32) (b : Vec Ideal S1x257 .f32) (r : Fin 2048) (j : Fin 257) :
    k0_pay6 (F := Ideal) acc b (ix2 r j) = acc (ix2 r j) + b (ix2 0 j) := by
  unfold k0_pay6
  rw [shapeCast_self]
  refine congrArg (acc (ix2 r j) + ·) ?_
  exact broadcastTo_apply b broadcasts_S1x257_S2048x257 (ix2 r j) (ix2 0 j) (fun a => by
    match a with
    | ⟨0, _⟩ => rfl
    | ⟨1, _⟩ => show j.val = if (257 : Nat) = 1 then 0 else j.val; rw [if_neg (by decide)])

theorem pay7_apply (acc : Vec Ideal S2048x257 .f32) (b : Vec Ideal S1x257 .f32) (r : Fin 2048) (j : Fin 257) :
    k0_pay7 (F := Ideal) acc b (ix2 r j) = acc (ix2 r j) + b (ix2 0 j) := by
  unfold k0_pay7
  rw [shapeCast_self]
  refine congrArg (acc (ix2 r j) + ·) ?_
  exact broadcastTo_apply b broadcasts_S1x257_S2048x257 (ix2 r j) (ix2 0 j) (fun a => by
    match a with
    | ⟨0, _⟩ => rfl
    | ⟨1, _⟩ => show j.val = if (257 : Nat) = 1 then 0 else j.val; rw [if_neg (by decide)])

end Cert.FT

end
-- ==== Proof.Blocks.lean ====
/-
  Where each window's block sits in its array.  The grid has 160 points; point `t` is row tile `t / 80` (of two,
  2048 rows each) and feature step `t % 80` (of eighty, 512 features each).  At point `t` the two feature
  matrices' blocks are rows `2048 (t / 80) + r`, features `512 (t % 80) + k`; the weights' block is features
  `512 (t % 80) + k`, all 257 columns, of the TRANSPOSED weight matrix, that is entry `(j, 512 (t % 80) + k)` of
  the weight matrix itself; the bias block is the bias vector laid out as one row.
-/
import proofs.«113688_j71141838291202_1_alg».proof.Proof.Gen.KernelIdeal.Frame.Runs
import Idealize.ShloMosaic.Lib.ValueIdx
import Idealize.ShloMosaic.Lib.Pipeline.Value
import Idealize.ShloMosaic.Lib.StableHlo.Run

noncomputable section

namespace Cert.FT

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]
variable (m : (ℓ : Loc nD τ sig) → Buf (Elt F) ℓ)

/-- The printed index maps, decided once over the 160 grid points. -/
theorem idx_facts : ∀ t : Fin cfg0.N,
    win0_0.index t (0 : Fin 2) = t.val / 80 ∧ win0_0.index t (1 : Fin 2) = t.val % 80
    ∧ win0_1.index t (0 : Fin 2) = t.val / 80 ∧ win0_1.index t (1 : Fin 2) = t.val % 80
    ∧ win0_2.index t (0 : Fin 2) = t.val % 80 ∧ win0_2.index t (1 : Fin 2) = 0
    ∧ win0_3.index t (0 : Fin 2) = 0 ∧ win0_3.index t (1 : Fin 2) = 0
    ∧ win0_4.index t (0 : Fin 2) = t.val / 80 ∧ win0_4.index t (1 : Fin 2) = 0
    ∧ win0_5.index t (0 : Fin 2) = t.val / 80 ∧ win0_5.index t (1 : Fin 2) = 0 :=
  (by decide +kernel : ∀ t : Fin grid0.N, _)

/-- The array the third window stages is the transposed weight matrix, computed on the host before the call. -/
theorem V_weightsT (c : Dev nD) :
    (V m c main_v0 : S40960x257.Idx → Elt F .f32)
      = transpose S40960x257 [1, 0] (m ((c : Thread nD τ).loc main_arg3)) transposes_S257x40960_S40960x257_1_0 := by
  show StableHlo.after hostOps0 (fun b => m (c, b)) (Proc.devRef .tc main_v0) = _
  after_results

/-- The array the fourth window stages is the bias vector reshaped to one row. -/
theorem V_biasRow (c : Dev nD) :
    (V m c main_v1 : S1x257.Idx → Elt F .f32)
      = shapeCast S1x257 (m ((c : Thread nD τ).loc main_arg4)) shapeCasts_S257_S1x257 := by
  show StableHlo.after hostOps0 (fun b => m (c, b)) (Proc.devRef .tc main_v1) = _
  after_results
  rfl

/-- The first feature matrix's block at point `t`, entry `y`. -/
theorem iblk0_apply (c : Dev nD) (t : Fin cfg0.N) (y : S2048x512.Idx) (i : S4096x40960.Idx)
    (h0 : (i 0).val = 2048 * (t.val / 80) + (y 0).val) (h1 : (i 1).val = 512 * (t.val % 80) + (y 1).val) :
    (iblk m c 0 t : Vec F S2048x512 .f32) y = m ((c : Thread nD τ).loc main_arg0) i := by
  obtain ⟨e0, e1, -⟩ := idx_facts t
  unfold iblk
  rw [View.read_apply]
  show V m c main_arg0 (((cfg0.win 0).blk t).view.emb y) = _
  rw [V_main_arg0]
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 512 + 1 * (y 1).val = (i 1).val; rw [e1, h1]; omega

/-- The second feature matrix's block at point `t`, entry `y`. -/
theorem iblk1_apply (c : Dev nD) (t : Fin cfg0.N) (y : S2048x512.Idx) (i : S4096x40960.Idx)
    (h0 : (i 0).val = 2048 * (t.val / 80) + (y 0).val) (h1 : (i 1).val = 512 * (t.val % 80) + (y 1).val) :
    (iblk m c 1 t : Vec F S2048x512 .f32) y = m ((c : Thread nD τ).loc main_arg1) i := by
  obtain ⟨-, -, e0, e1, -⟩ := idx_facts t
  unfold iblk
  rw [View.read_apply]
  show V m c main_arg1 (((cfg0.win 1).blk t).view.emb y) = _
  rw [V_main_arg1]
  refine congrArg _ (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 512 + 1 * (y 1).val = (i 1).val; rw [e1, h1]; omega

/-- The transposed weights' block at point `t`, entry `y = (k, j)`: the weight matrix at `(j, 512 (t % 80) + k)`. -/
theorem iblk2_apply (c : Dev nD) (t : Fin cfg0.N) (y : S512x257.Idx) (i : S257x40960.Idx)
    (h0 : (i 0).val = (y 1).val) (h1 : (i 1).val = 512 * (t.val % 80) + (y 0).val) :
    (iblk m c 2 t : Vec F S512x257 .f32) y = m ((c : Thread nD τ).loc main_arg3) i := by
  obtain ⟨-, -, -, -, e0, e1, -⟩ := idx_facts t
  unfold iblk
  rw [View.read_apply]
  show V m c main_v0 (((cfg0.win 2).blk t).view.emb y) = _
  rw [V_weightsT]
  refine transpose_apply [1, 0] _ transposes_S257x40960_S40960x257_1_0 _ i (fun b => ?_)
  match b with
  | ⟨0, _⟩ => show (i 1).val = win0_2.index t (0 : Fin 2) * 512 + 1 * (y 0).val; rw [e0, h1]; omega
  | ⟨1, _⟩ => show (i 0).val = win0_2.index t (1 : Fin 2) * 257 + 1 * (y 1).val; rw [e1, h0]; omega

/-- The bias row's block (the whole row, at every point), entry `(0, j)`: the bias vector at `j`. -/
theorem iblk3_apply (c : Dev nD) (t : Fin cfg0.N) (y : S1x257.Idx) (i : S257.Idx) (h : (i 0).val = (y 1).val) :
    (iblk m c 3 t : Vec F S1x257 .f32) y = m ((c : Thread nD τ).loc main_arg4) i := by
  obtain ⟨-, -, -, -, -, -, e0, e1, -⟩ := idx_facts t
  unfold iblk
  rw [View.read_apply]
  show V m c main_v1 (((cfg0.win 3).blk t).view.emb y) = _
  rw [V_biasRow]
  refine (shapeCast_addUnit_apply ![257] (m ((c : Thread nD τ).loc main_arg4)) shapeCasts_S257_S1x257 _).trans ?_
  refine congrArg _ (funext fun a => Fin.ext ?_)
  match a with
  | ⟨0, _⟩ => show win0_3.index t (1 : Fin 2) * 257 + 1 * (y 1).val = (i 0).val; rw [e1, h]; omega

end Cert.FT

end
-- ==== Proof.BlockSum.lean ====
/-
  A sum over `nb * bs` consecutive naturals is the sum, block after block, of the `nb` blocks of `bs` terms
  each — in any additive commutative monoid, so in particular on the extended reals, where nothing about
  finiteness is needed: only that `+` is commutative and associative.  The running form (the first `n + 1`
  blocks are the first `n` blocks plus block `n`) is what an accumulator carried from one grid point to the
  next computes; the closed form is what one contraction over the whole axis computes.
-/
import Mathlib.Algebra.BigOperators.Group.Finset.Basic
import Mathlib.Algebra.BigOperators.Fin

namespace Cert.FT

open Finset

variable {M : Type*} [AddCommMonoid M]

/-- Block `b` of width `bs` of the terms `f 0, f 1, …`: the terms `f (bs * b), …, f (bs * b + bs - 1)`. -/
def blockSum (f : ℕ → M) (bs b : ℕ) : M := ∑ k ∈ range bs, f (bs * b + k)

/-- The sum of the first `n` blocks. -/
def blocksUpTo (f : ℕ → M) (bs n : ℕ) : M := ∑ b ∈ range n, blockSum f bs b

theorem blocksUpTo_zero (f : ℕ → M) (bs : ℕ) : blocksUpTo f bs 0 = 0 := by
  unfold blocksUpTo; exact sum_range_zero _

/-- One more block: the accumulator's step. -/
theorem blocksUpTo_succ (f : ℕ → M) (bs n : ℕ) :
    blocksUpTo f bs (n + 1) = blocksUpTo f bs n + blockSum f bs n := by
  unfold blocksUpTo; exact sum_range_succ _ _

/-- The first `nb` blocks together are the first `nb * bs` terms. -/
theorem blocksUpTo_eq_sum (f : ℕ → M) (bs : ℕ) : ∀ nb : ℕ, blocksUpTo f bs nb = ∑ K ∈ range (nb * bs), f K
  | 0 => by rw [blocksUpTo_zero, Nat.zero_mul, sum_range_zero]
  | n + 1 => by
    rw [blocksUpTo_succ, blocksUpTo_eq_sum f bs n, Nat.succ_mul, sum_range_add, Nat.mul_comm n bs]
    rfl

/-- A sum over `Fin n` of a function of the value is the sum over `range n`. -/
theorem sum_fin_eq_range (f : ℕ → M) (n : ℕ) : ∑ k : Fin n, f k.val = ∑ k ∈ range n, f k :=
  (Fin.sum_univ_eq_sum_range f n)

end Cert.FT
-- ==== Proof.Chain.lean ====
/-
  The accumulation, point by point.  Fix an output entry: row `r` of row tile `q`, column `j`.  Write `f K` for
  term `K` of its contraction, feature `K` of that row times weight `(j, K)`.  At feature step `s` of tile `q`
  the body adds to the accumulator block `s` of these terms (512 of them).  So after step `s` the accumulator
  holds the first `s + 1` blocks — by induction on the grid point, the first step of a tile starting from the
  zero the reset stored — and after step 79 all eighty, that is the whole contraction; the last step then adds the
  bias entry `j`.  Only commutativity and associativity of `+` on the extended reals are used, so no entry has
  to be finite.
-/
import proofs.«113688_j71141838291202_1_alg».proof.Proof.Pieces
import proofs.«113688_j71141838291202_1_alg».proof.Proof.Payload
import proofs.«113688_j71141838291202_1_alg».proof.Proof.Blocks
import proofs.«113688_j71141838291202_1_alg».proof.Proof.BlockSum

noncomputable section

namespace Cert.FT

open Idealize.ShloMosaic Idealize.ShloMosaic.TcCoe Idealize.ShloMosaic.ValueIdx Idealize.SL.Sem
open Cert.KernelIdeal Cert.KernelIdeal.Gen

/-- Term `K` of the contraction for output entry `(i, j)`: feature `K` of row `i` times weight `(j, K)`
    (zero past the last feature, so that the terms are indexed by all naturals). -/
def term (X : FVec Ideal S4096x40960 .f32) (W : FVec Ideal S257x40960 .f32) (i : Fin 4096) (j : Fin 257) (K : ℕ) : EReal :=
  if h : K < 40960 then X (ix2 i ⟨K, h⟩) * W (ix2 j ⟨K, h⟩) else 0

/-- Row `r` of row tile `q` (reduced mod 4096 so that it is a row for every `q`; the tiles are `q = 0, 1`). -/
def rowOf (q : ℕ) (r : Fin 2048) : Fin 4096 := ⟨(2048 * q + r.val) % 4096, Nat.mod_lt _ (by decide)⟩

theorem rowOf_val (q : ℕ) (hq : q < 2) (r : Fin 2048) : (rowOf q r).val = 2048 * q + r.val := by
  show (2048 * q + r.val) % 4096 = _
  have := r.isLt
  omega

/-- The feature transformer's output: the whole contraction plus the bias. -/
def ftOut (X : FVec Ideal S4096x40960 .f32) (W : FVec Ideal S257x40960 .f32) (b : FVec Ideal S257 .f32) :
    FVec Ideal S4096x257 .f32 :=
  fun i => (∑ K : Fin 40960, X (ix2 (i 0) K) * W (ix2 (i 1) K)) + b (ix1 (i 1))

/-- All eighty blocks of the terms are the whole contraction. -/
theorem blocks_all (X : FVec Ideal S4096x40960 .f32) (W : FVec Ideal S257x40960 .f32) (i : Fin 4096) (j : Fin 257) :
    blocksUpTo (term X W i j) 512 80 = ∑ K : Fin 40960, X (ix2 i K) * W (ix2 j K) := by
  rw [blocksUpTo_eq_sum, show 80 * 512 = 40960 from rfl, ← sum_fin_eq_range]
  refine Finset.sum_congr rfl fun K _ => ?_
  unfold term
  rw [dif_pos K.isLt]

variable (m : (ℓ : Loc nD τ sig) → Buf (Elt Ideal) ℓ)

theorem N_eq : cfg0.N = 160 := N_0

/-- A block product is a block of the terms: if `x` holds row `i`'s features `512 s …` in its row `r`, and `w`
    holds the weights `(j, 512 s …)` in its column `j`, then `∑ₖ x[r, k] · w[k, j]` is block `s` of the terms of
    output entry `(i, j)`. -/
theorem blockProd (X : FVec Ideal S4096x40960 .f32) (W : FVec Ideal S257x40960 .f32) (i : Fin 4096) (j : Fin 257) (s : ℕ)
    (hs : s < 80) (x : Vec Ideal S2048x512 .f32) (w : Vec Ideal S512x257 .f32) (r : Fin 2048)
    (hx : ∀ (k : Fin 512) (hK : 512 * s + k.val < 40960), x (ix2 r k) = X (ix2 i ⟨512 * s + k.val, hK⟩))
    (hw : ∀ (k : Fin 512) (hK : 512 * s + k.val < 40960), w (ix2 k j) = W (ix2 j ⟨512 * s + k.val, hK⟩)) :
    ∑ k : Fin 512, x (ix2 r k) * w (ix2 k j) = blockSum (term X W i j) 512 s := by
  unfold blockSum
  rw [← sum_fin_eq_range]
  refine Finset.sum_congr rfl fun k _ => ?_
  have hK : 512 * s + k.val < 40960 := by have := k.isLt; omega
  unfold term
  rw [dif_pos hK, hx k hK, hw k hK]

/-- One accumulation step at point `t`, first accumulator. -/
theorem step0 (c : Dev nD) (t : Fin cfg0.N) (acc : Vec Ideal S2048x257 .f32) (r : Fin 2048) (j : Fin 257) :
    k0_pay4 (F := Ideal) (iblk m c 0 t) (iblk m c 2 t) acc (ix2 r j)
      = acc (ix2 r j) + blockSum (term (m ((c : Thread nD τ).loc main_arg0)) (m ((c : Thread nD τ).loc main_arg3)) (rowOf (t.val / 80) r) j) 512 (t.val % 80) := by
  have hN : t.val < 160 := lt_of_lt_of_eq t.isLt N_eq
  refine (pay4_apply (iblk m c 0 t) (iblk m c 2 t) acc r j).trans (congrArg (acc (ix2 r j) + ·) ?_)
  exact blockProd (m ((c : Thread nD τ).loc main_arg0)) (m ((c : Thread nD τ).loc main_arg3)) (rowOf (t.val / 80) r) j (t.val % 80) (by omega) (iblk m c 0 t) (iblk m c 2 t) r
    (fun k hK => iblk0_apply m c t (ix2 r k) (ix2 (rowOf (t.val / 80) r) ⟨_, hK⟩) (rowOf_val _ (by omega) r) rfl)
    (fun k hK => iblk2_apply m c t (ix2 k j) (ix2 j ⟨_, hK⟩) rfl rfl)

/-- One accumulation step at point `t`, second accumulator. -/
theorem step1 (c : Dev nD) (t : Fin cfg0.N) (acc : Vec Ideal S2048x257 .f32) (r : Fin 2048) (j : Fin 257) :
    k0_pay5 (F := Ideal) (iblk m c 1 t) (iblk m c 2 t) acc (ix2 r j)
      = acc (ix2 r j) + blockSum (term (m ((c : Thread nD τ).loc main_arg1)) (m ((c : Thread nD τ).loc main_arg3)) (rowOf (t.val / 80) r) j) 512 (t.val % 80) := by
  have hN : t.val < 160 := lt_of_lt_of_eq t.isLt N_eq
  refine (pay5_apply (iblk m c 1 t) (iblk m c 2 t) acc r j).trans (congrArg (acc (ix2 r j) + ·) ?_)
  exact blockProd (m ((c : Thread nD τ).loc main_arg1)) (m ((c : Thread nD τ).loc main_arg3)) (rowOf (t.val / 80) r) j (t.val % 80) (by omega) (iblk m c 1 t) (iblk m c 2 t) r
    (fun k hK => iblk1_apply m c t (ix2 r k) (ix2 (rowOf (t.val / 80) r) ⟨_, hK⟩) (rowOf_val _ (by omega) r) rfl)
    (fun k hK => iblk2_apply m c t (ix2 k j) (ix2 j ⟨_, hK⟩) rfl rfl)

/-- At a tile's first feature step the accumulators hold block 0 (over the zero the reset stored). -/
theorem acc_first (c : Dev nD) (t : Fin cfg0.N) (h0 : t.val % 80 = 0) (r : Fin 2048) (j : Fin 257) :
    (outsAt0 m c t.val t.isLt).2.2.1 (ix2 r j)
        = 0 + blockSum (term (m ((c : Thread nD τ).loc main_arg0)) (m ((c : Thread nD τ).loc main_arg3)) (rowOf (t.val / 80) r) j) 512 (t.val % 80)
    ∧ (outsAt0 m c t.val t.isLt).2.2.2 (ix2 r j)
        = 0 + blockSum (term (m ((c : Thread nD τ).loc main_arg1)) (m ((c : Thread nD τ).loc main_arg3)) (rowOf (t.val / 80) r) j) 512 (t.val % 80) := by
  have h1 : ¬t.val % 80 = 79 := by omega
  rw [outsAt0_A m c t h0 h1]
  dsimp only
  refine ⟨?_, ?_⟩
  · refine (congrFun (accA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t)) (ix2 r j)).trans ?_
    refine (step0 m c t _ r j).trans ?_
    rw [pay1_apply]
  · refine (congrFun (accA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t)) (ix2 r j)).trans ?_
    refine (step1 m c t _ r j).trans ?_
    rw [pay2_apply]

/-- At every later feature step they hold what the point before left plus this step's block. -/
theorem acc_next (c : Dev nD) (t : Fin cfg0.N) (h0 : ¬t.val % 80 = 0) (r : Fin 2048) (j : Fin 257) :
    (outsAt0 m c t.val t.isLt).2.2.1 (ix2 r j)
        = (outsAt0 m c (t.val - 1) (Nat.lt_of_le_of_lt (Nat.sub_le _ _) t.isLt)).2.2.1 (ix2 r j)
          + blockSum (term (m ((c : Thread nD τ).loc main_arg0)) (m ((c : Thread nD τ).loc main_arg3)) (rowOf (t.val / 80) r) j) 512 (t.val % 80)
    ∧ (outsAt0 m c t.val t.isLt).2.2.2 (ix2 r j)
        = (outsAt0 m c (t.val - 1) (Nat.lt_of_le_of_lt (Nat.sub_le _ _) t.isLt)).2.2.2 (ix2 r j)
          + blockSum (term (m ((c : Thread nD τ).loc main_arg1)) (m ((c : Thread nD τ).loc main_arg3)) (rowOf (t.val / 80) r) j) 512 (t.val % 80) := by
  by_cases h1 : t.val % 80 = 79
  · rw [outsAt0_C m c t h0 h1]
    dsimp only
    refine ⟨?_, ?_⟩
    · refine (congrFun (accC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
      exact step0 m c t _ r j
    · refine (congrFun (accC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
      exact step1 m c t _ r j
  · rw [outsAt0_B m c t h0 h1]
    dsimp only
    refine ⟨?_, ?_⟩
    · refine (congrFun (accB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
      exact step0 m c t _ r j
    · refine (congrFun (accB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
      exact step1 m c t _ r j

/-- At a tile's last feature step each output block is its accumulator after the step plus the bias entry. -/
theorem out_last (c : Dev nD) (t : Fin cfg0.N) (h1 : t.val % 80 = 79) (r : Fin 2048) (j : Fin 257) :
    (outsAt0 m c t.val t.isLt).1 (ix2 r j)
        = (outsAt0 m c t.val t.isLt).2.2.1 (ix2 r j) + (m ((c : Thread nD τ).loc main_arg4)) (ix1 j)
    ∧ (outsAt0 m c t.val t.isLt).2.1 (ix2 r j)
        = (outsAt0 m c t.val t.isLt).2.2.2 (ix2 r j) + (m ((c : Thread nD τ).loc main_arg4)) (ix1 j) := by
  have h0 : ¬t.val % 80 = 0 := by omega
  rw [outsAt0_C m c t h0 h1]
  dsimp only
  refine ⟨?_, ?_⟩
  · refine (congrFun (outC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
    refine (pay6_apply _ (iblk m c 3 t) r j).trans ?_
    rw [congrFun (accC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)]
    exact congrArg (_ + ·) (iblk3_apply m c t (ix2 0 j) (ix1 j) rfl)
  · refine (congrFun (outC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)).trans ?_
    refine (pay7_apply _ (iblk m c 3 t) r j).trans ?_
    rw [congrFun (accC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r j)]
    exact congrArg (_ + ·) (iblk3_apply m c t (ix2 0 j) (ix1 j) rfl)

/-- THE INVARIANT: after point `n` (row tile `n / 80`, feature step `n % 80`) each accumulator holds, at
    `(r, j)`, the first `n % 80 + 1` blocks of the terms of output entry `(2048 (n / 80) + r, j)`. -/
theorem acc_inv (c : Dev nD) : ∀ (n : ℕ) (hn : n < cfg0.N) (r : Fin 2048) (j : Fin 257),
    (outsAt0 m c n hn).2.2.1 (ix2 r j) = blocksUpTo (term (m ((c : Thread nD τ).loc main_arg0)) (m ((c : Thread nD τ).loc main_arg3)) (rowOf (n / 80) r) j) 512 (n % 80 + 1)
    ∧ (outsAt0 m c n hn).2.2.2 (ix2 r j) = blocksUpTo (term (m ((c : Thread nD τ).loc main_arg1)) (m ((c : Thread nD τ).loc main_arg3)) (rowOf (n / 80) r) j) 512 (n % 80 + 1)
  | 0, hn, r, j => by
    obtain ⟨e0, e1⟩ := acc_first m c ⟨0, hn⟩ rfl r j
    refine ⟨e0.trans ?_, e1.trans ?_⟩ <;>
    · show 0 + blockSum _ 512 (0 % 80) = blocksUpTo _ 512 (0 % 80 + 1)
      rw [blocksUpTo_succ, blocksUpTo_zero]
  | n + 1, hn, r, j => by
    by_cases h0 : (n + 1) % 80 = 0
    · obtain ⟨e0, e1⟩ := acc_first m c ⟨n + 1, hn⟩ h0 r j
      refine ⟨e0.trans ?_, e1.trans ?_⟩ <;>
      · show 0 + blockSum _ 512 ((n + 1) % 80) = blocksUpTo _ 512 ((n + 1) % 80 + 1)
        rw [h0, blocksUpTo_succ, blocksUpTo_zero]
    · obtain ⟨e0, e1⟩ := acc_next m c ⟨n + 1, hn⟩ h0 r j
      obtain ⟨i0, i1⟩ := acc_inv c n (Nat.lt_of_succ_lt hn) r j
      have q : (n + 1) / 80 = n / 80 := by omega
      have s : (n + 1) % 80 = n % 80 + 1 := by omega
      refine ⟨e0.trans ?_, e1.trans ?_⟩
      · show (outsAt0 m c n _).2.2.1 (ix2 r j) + blockSum _ 512 ((n + 1) % 80) = blocksUpTo _ 512 ((n + 1) % 80 + 1)
        rw [i0, q, s, ← blocksUpTo_succ]
      · show (outsAt0 m c n _).2.2.2 (ix2 r j) + blockSum _ 512 ((n + 1) % 80) = blocksUpTo _ 512 ((n + 1) % 80 + 1)
        rw [i1, q, s, ← blocksUpTo_succ]

/-- So at a tile's last feature step each output block is the feature transformer's output on the tile's rows. -/
theorem out_at_last (c : Dev nD) (t : Fin cfg0.N) (h1 : t.val % 80 = 79) (r : Fin 2048) (j : Fin 257) :
    (outsAt0 m c t.val t.isLt).1 (ix2 r j) = ftOut (m ((c : Thread nD τ).loc main_arg0)) (m ((c : Thread nD τ).loc main_arg3)) (m ((c : Thread nD τ).loc main_arg4)) (ix2 (rowOf (t.val / 80) r) j)
    ∧ (outsAt0 m c t.val t.isLt).2.1 (ix2 r j) = ftOut (m ((c : Thread nD τ).loc main_arg1)) (m ((c : Thread nD τ).loc main_arg3)) (m ((c : Thread nD τ).loc main_arg4)) (ix2 (rowOf (t.val / 80) r) j) := by
  obtain ⟨o0, o1⟩ := out_last m c t h1 r j
  obtain ⟨i0, i1⟩ := acc_inv m c t.val t.isLt r j
  refine ⟨o0.trans ?_, o1.trans ?_⟩
  · rw [i0, h1]
    show blocksUpTo _ 512 80 + _ = _
    rw [blocks_all]
    rfl
  · rw [i1, h1]
    show blocksUpTo _ 512 80 + _ = _
    rw [blocks_all]
    rfl

end Cert.FT

end
-- ==== Proof.Final.lean ====
/-
  From blocks to arrays.  Each of the two output arrays ([4096, 257]) is written back twice: rows 0–2047 after
  point 79 and rows 2048–4095 after point 159, the last feature steps of the two row tiles.  What is written
  back there is the feature transformer's output on those rows (the accumulation invariant), and the two blocks
  cover every row; so after the call each output array IS the feature transformer's output of its feature
  matrix: the whole contraction against the weight matrix, plus the bias.
-/
import proofs.«113688_j71141838291202_1_alg».proof.Proof.Chain

noncomputable section

namespace Cert.FT

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Output window 4's block at a tile's last feature step, entry `y`, is the feature transformer's output at the
    array index the block's entry sits at. -/
theorem out4_block (c : Dev nD) (t : Fin cfg0.N) (h1 : t.val % 80 = 79) (y : S2048x257.Idx) (i : S4096x257.Idx)
    (h0 : (i 0).val = 2048 * (t.val / 80) + (y 0).val) (hj : (i 1).val = (y 1).val) :
    (outsAt0 m c t.val t.isLt).1 y = ftOut (m ((c : Thread nD τ).loc main_arg0)) (m ((c : Thread nD τ).loc main_arg3)) (m ((c : Thread nD τ).loc main_arg4)) i := by
  have hN : t.val < 160 := lt_of_lt_of_eq t.isLt N_eq
  obtain ⟨p, q, rfl⟩ : ∃ (p : Fin 2048) (q : Fin 257), y = ix2 p q := ⟨y 0, y 1, eq_ix2 y⟩
  refine (out_at_last m c t h1 p q).1.trans (congrArg _ (funext fun a => Fin.ext ?_))
  match a with
  | ⟨0, _⟩ => exact (rowOf_val _ (by omega) p).trans h0.symm
  | ⟨1, _⟩ => exact hj.symm

/-- WHAT A FLUSHING POINT WRITES BACK into output array 4 is its block of the feature transformer's output. -/
theorem flushed4_eq (c : Dev nD) (t : Fin cfg0.N) (hf : (cfg0.win 4).flush t = true) :
    (dats m 0 c).flushed 4 t = ((cfg0.win 4).blk t).view.read (Elt Ideal) (ftOut (m ((c : Thread nD τ).loc main_arg0)) (m ((c : Thread nD τ).loc main_arg3)) (m ((c : Thread nD τ).loc main_arg4))) := by
  have h1 : t.val % 80 = 79 := (flush0_4 t).mp hf
  obtain ⟨-, -, -, -, -, -, -, -, e40, e41, e50, e51⟩ := idx_facts t
  show (cfg0.win 4).cut (grid0.coords t) ((dats m 0 c).after 4 t) = _
  rw [after0_4]
  funext y
  rw [View.read_apply]
  refine out4_block m c t h1 y _ ?_ ?_
  · show win0_4.index t (0 : Fin 2) * 2048 + 1 * (y 0).val = _
    rw [e40]; omega
  · show win0_4.index t (1 : Fin 2) * 257 + 1 * (y 1).val = _
    rw [e41]; omega

/-- An index of output array 4 is in point `t`'s block iff each coordinate is in the block's range on its axis. -/
theorem mem_blk4 (t : Fin cfg0.N) (i : S4096x257.Idx) :
    i ∈ ((cfg0.win 4).blk t).view.set ↔ ∀ a : Fin 2, win0_4.index t a * S2048x257.size a ≤ (i a).val ∧ (i a).val < win0_4.index t a * S2048x257.size a + S2048x257.size a := by
  show i ∈ ((View.whole main_v2_0).slice (win0_4.rect t)).set ↔ _
  rw [View.set_slice_whole, Rect.mem_set_unit]
  exact Iff.rfl

/-- Every row is in the block some tile's last feature step writes back: rows `2048 q …` at point `80 q + 79`. -/
theorem cover4 (i : S4096x257.Idx) :
    ∃ t : Fin cfg0.N, (cfg0.win 4).flush t = true ∧ i ∈ ((cfg0.win 4).blk t).view.set := by
  have hi0 : (i 0).val < 4096 := (i 0).isLt
  have hi1 : (i 1).val < 257 := (i 1).isLt
  have ht : 80 * ((i 0).val / 2048) + 79 < cfg0.N := by rw [N_eq]; omega
  refine ⟨⟨80 * ((i 0).val / 2048) + 79, ht⟩, (flush0_4 _).mpr (by show (80 * ((i 0).val / 2048) + 79) % 80 = 79; omega), ?_⟩
  obtain ⟨-, -, -, -, -, -, -, -, e40, e41, e50, e51⟩ := idx_facts ⟨80 * ((i 0).val / 2048) + 79, ht⟩
  dsimp only at e40 e41 e50 e51
  rw [mem_blk4]
  intro a
  match a with
  | ⟨0, _⟩ =>
    show win0_4.index _ (0 : Fin 2) * 2048 ≤ (i 0).val ∧ (i 0).val < win0_4.index _ (0 : Fin 2) * 2048 + 2048
    rw [e40]; omega
  | ⟨1, _⟩ =>
    show win0_4.index _ (1 : Fin 2) * 257 ≤ (i 1).val ∧ (i 1).val < win0_4.index _ (1 : Fin 2) * 257 + 257
    rw [e41]; omega

/-- OUTPUT ARRAY 4 AFTER THE CALL is the feature transformer's output of its feature matrix. -/
theorem final4 (c : Dev nD) : (dats m 0 c).arrAt 4 cfg0.N = ftOut (m ((c : Thread nD τ).loc main_arg0)) (m ((c : Thread nD τ).loc main_arg3)) (m ((c : Thread nD τ).loc main_arg4)) :=
  (dats m 0 c).arrAt_eq_of_cover 4 (ftOut (m ((c : Thread nD τ).loc main_arg0)) (m ((c : Thread nD τ).loc main_arg3)) (m ((c : Thread nD τ).loc main_arg4))) (flushed4_eq m c) cover4

/-- Output window 5's block at a tile's last feature step, entry `y`, is the feature transformer's output at the
    array index the block's entry sits at. -/
theorem out5_block (c : Dev nD) (t : Fin cfg0.N) (h1 : t.val % 80 = 79) (y : S2048x257.Idx) (i : S4096x257.Idx)
    (h0 : (i 0).val = 2048 * (t.val / 80) + (y 0).val) (hj : (i 1).val = (y 1).val) :
    (outsAt0 m c t.val t.isLt).2.1 y = ftOut (m ((c : Thread nD τ).loc main_arg1)) (m ((c : Thread nD τ).loc main_arg3)) (m ((c : Thread nD τ).loc main_arg4)) i := by
  have hN : t.val < 160 := lt_of_lt_of_eq t.isLt N_eq
  obtain ⟨p, q, rfl⟩ : ∃ (p : Fin 2048) (q : Fin 257), y = ix2 p q := ⟨y 0, y 1, eq_ix2 y⟩
  refine (out_at_last m c t h1 p q).2.trans (congrArg _ (funext fun a => Fin.ext ?_))
  match a with
  | ⟨0, _⟩ => exact (rowOf_val _ (by omega) p).trans h0.symm
  | ⟨1, _⟩ => exact hj.symm

/-- WHAT A FLUSHING POINT WRITES BACK into output array 5 is its block of the feature transformer's output. -/
theorem flushed5_eq (c : Dev nD) (t : Fin cfg0.N) (hf : (cfg0.win 5).flush t = true) :
    (dats m 0 c).flushed 5 t = ((cfg0.win 5).blk t).view.read (Elt Ideal) (ftOut (m ((c : Thread nD τ).loc main_arg1)) (m ((c : Thread nD τ).loc main_arg3)) (m ((c : Thread nD τ).loc main_arg4))) := by
  have h1 : t.val % 80 = 79 := (flush0_5 t).mp hf
  obtain ⟨-, -, -, -, -, -, -, -, e40, e41, e50, e51⟩ := idx_facts t
  show (cfg0.win 5).cut (grid0.coords t) ((dats m 0 c).after 5 t) = _
  rw [after0_5]
  funext y
  rw [View.read_apply]
  refine out5_block m c t h1 y _ ?_ ?_
  · show win0_5.index t (0 : Fin 2) * 2048 + 1 * (y 0).val = _
    rw [e50]; omega
  · show win0_5.index t (1 : Fin 2) * 257 + 1 * (y 1).val = _
    rw [e51]; omega

/-- An index of output array 5 is in point `t`'s block iff each coordinate is in the block's range on its axis. -/
theorem mem_blk5 (t : Fin cfg0.N) (i : S4096x257.Idx) :
    i ∈ ((cfg0.win 5).blk t).view.set ↔ ∀ a : Fin 2, win0_5.index t a * S2048x257.size a ≤ (i a).val ∧ (i a).val < win0_5.index t a * S2048x257.size a + S2048x257.size a := by
  show i ∈ ((View.whole main_v2_1).slice (win0_5.rect t)).set ↔ _
  rw [View.set_slice_whole, Rect.mem_set_unit]
  exact Iff.rfl

/-- Every row is in the block some tile's last feature step writes back: rows `2048 q …` at point `80 q + 79`. -/
theorem cover5 (i : S4096x257.Idx) :
    ∃ t : Fin cfg0.N, (cfg0.win 5).flush t = true ∧ i ∈ ((cfg0.win 5).blk t).view.set := by
  have hi0 : (i 0).val < 4096 := (i 0).isLt
  have hi1 : (i 1).val < 257 := (i 1).isLt
  have ht : 80 * ((i 0).val / 2048) + 79 < cfg0.N := by rw [N_eq]; omega
  refine ⟨⟨80 * ((i 0).val / 2048) + 79, ht⟩, (flush0_5 _).mpr (by show (80 * ((i 0).val / 2048) + 79) % 80 = 79; omega), ?_⟩
  obtain ⟨-, -, -, -, -, -, -, -, e40, e41, e50, e51⟩ := idx_facts ⟨80 * ((i 0).val / 2048) + 79, ht⟩
  dsimp only at e40 e41 e50 e51
  rw [mem_blk5]
  intro a
  match a with
  | ⟨0, _⟩ =>
    show win0_5.index _ (0 : Fin 2) * 2048 ≤ (i 0).val ∧ (i 0).val < win0_5.index _ (0 : Fin 2) * 2048 + 2048
    rw [e50]; omega
  | ⟨1, _⟩ =>
    show win0_5.index _ (1 : Fin 2) * 257 ≤ (i 1).val ∧ (i 1).val < win0_5.index _ (1 : Fin 2) * 257 + 257
    rw [e51]; omega

/-- OUTPUT ARRAY 5 AFTER THE CALL is the feature transformer's output of its feature matrix. -/
theorem final5 (c : Dev nD) : (dats m 0 c).arrAt 5 cfg0.N = ftOut (m ((c : Thread nD τ).loc main_arg1)) (m ((c : Thread nD τ).loc main_arg3)) (m ((c : Thread nD τ).loc main_arg4)) :=
  (dats m 0 c).arrAt_eq_of_cover 5 (ftOut (m ((c : Thread nD τ).loc main_arg1)) (m ((c : Thread nD τ).loc main_arg3)) (m ((c : Thread nD τ).loc main_arg4))) (flushed5_eq m c) cover5

end Cert.FT

end
-- ==== Proof.Tail.lean ====
/-
  What both programs do with the two feature-transformer outputs `wp`, `bp` (each [4096, 257]): split each into
  its first 256 columns and its last column, mix the two halves by the side-to-move flag
  (`stm · [w | b] + (1 − stm) · [b | w]`), clamp to [0, 1], three affine layers with a clamp after the first two,
  and add `(wp's last column + bp's last column) · (stm − 1/2)`.  Kernel and reference run this same chain of
  operations on their own `wp`, `bp`; so once those two arrays are known equal the results are equal, and the
  chain itself is never opened: it is one function, named here.
-/
import proofs.«113688_j71141838291202_1_alg».proof.Proof.Gen.KernelIdeal

noncomputable section

namespace Cert.FT

open Idealize.ShloMosaic Cert.KernelIdeal Cert.KernelIdeal.Facts₀ Cert.KernelIdeal.Facts

variable {F : FTy → Type} [FloatOps F]

/-- Clamp of a [4096, 512] array to [0, 1]: `min 1 (max 0 x)`, the bounds broadcast scalars. -/
def clamp512 (x : (⟨S4096x512, .f32⟩ : BufTy).Contents (Elt F)) : (⟨S4096x512, .f32⟩ : BufTy).Contents (Elt F) :=
  minimumf (broadcastInDim S4096x512 ![] bcast_S_S4096x512 (id (constant (F := F) S_ .f32 0x3F800000#32)))
    (maximumf (broadcastInDim S4096x512 ![] bcast_S_S4096x512 (id (constant (F := F) S_ .f32 0x00000000#32))) x)

/-- Clamp of a [4096, 32] array to [0, 1]. -/
def clamp32 (x : (⟨S4096x32, .f32⟩ : BufTy).Contents (Elt F)) : (⟨S4096x32, .f32⟩ : BufTy).Contents (Elt F) :=
  minimumf (broadcastInDim S4096x32 ![] bcast_S_S4096x32 (id (constant (F := F) S_ .f32 0x3F800000#32)))
    (maximumf (broadcastInDim S4096x32 ![] bcast_S_S4096x32 (id (constant (F := F) S_ .f32 0x00000000#32))) x)

/-- The network after the feature transformer, as one function of `wp`, `bp` and the remaining arguments. -/
def ffnTail (wp bp : (⟨S4096x257, .f32⟩ : BufTy).Contents (Elt F)) (stm : (⟨S4096x1, .f32⟩ : BufTy).Contents (Elt F))
    (l1w : (⟨S32x512, .f32⟩ : BufTy).Contents (Elt F)) (l1b : (⟨S32, .f32⟩ : BufTy).Contents (Elt F))
    (l2w : (⟨S32x32, .f32⟩ : BufTy).Contents (Elt F)) (l2b : (⟨S32, .f32⟩ : BufTy).Contents (Elt F))
    (l3w : (⟨S1x32, .f32⟩ : BufTy).Contents (Elt F)) (l3b : (⟨S1, .f32⟩ : BufTy).Contents (Elt F)) :
    (⟨S4096x1, .f32⟩ : BufTy).Contents (Elt F) :=
  let w : (⟨S4096x256, .f32⟩ : BufTy).Contents (Elt F) := extractStridedSlice S4096x256 ![0, 0] wp slices_S4096x257_S4096x256_0_0
  let wpsqt : (⟨S4096x1, .f32⟩ : BufTy).Contents (Elt F) := extractStridedSlice S4096x1 ![0, 256] wp slices_S4096x257_S4096x1_0_256
  let b : (⟨S4096x256, .f32⟩ : BufTy).Contents (Elt F) := extractStridedSlice S4096x256 ![0, 0] bp slices_S4096x257_S4096x256_0_0
  let bpsqt : (⟨S4096x1, .f32⟩ : BufTy).Contents (Elt F) := extractStridedSlice S4096x1 ![0, 256] bp slices_S4096x257_S4096x1_0_256
  let wb : (⟨S4096x512, .f32⟩ : BufTy).Contents (Elt F) := concatenate S4096x512 1 [⟨S4096x256, w⟩, ⟨S4096x256, b⟩] concatenates_S4096x256_S4096x256_S4096x512_d1
  let bw : (⟨S4096x512, .f32⟩ : BufTy).Contents (Elt F) := concatenate S4096x512 1 [⟨S4096x256, b⟩, ⟨S4096x256, w⟩] concatenates_S4096x256_S4096x256_S4096x512_d1
  let one : (⟨S4096x1, .f32⟩ : BufTy).Contents (Elt F) := broadcastInDim S4096x1 ![] bcast_S_S4096x1 (constant (F := F) S_ .f32 0x3F800000#32)
  let acc : (⟨S4096x512, .f32⟩ : BufTy).Contents (Elt F) :=
    addf (mulf (broadcastInDim S4096x512 ![0, 1] bcast_S4096x1_S4096x512_0_1 stm) wb)
      (mulf (broadcastInDim S4096x512 ![0, 1] bcast_S4096x1_S4096x512_0_1 (subf one stm)) bw)
  let h1 : (⟨S4096x32, .f32⟩ : BufTy).Contents (Elt F) :=
    clamp32 (addf (Host.dotGeneral dot_S4096x512_S512x32_S4096x32_1_0_0_1_n_n none (clamp512 acc) (transpose S512x32 [1, 0] l1w transposes_S32x512_S512x32_1_0))
      (broadcastInDim S4096x32 ![0, 1] bcast_S1x32_S4096x32_0_1 (broadcastInDim S1x32 ![1] bcast_S32_S1x32_1 l1b)))
  let h2 : (⟨S4096x32, .f32⟩ : BufTy).Contents (Elt F) :=
    clamp32 (addf (Host.dotGeneral dot_S4096x32_S32x32_S4096x32_1_0_0_1_n_n none h1 (transpose S32x32 [1, 0] l2w transposes_S32x32_S32x32_1_0))
      (broadcastInDim S4096x32 ![0, 1] bcast_S1x32_S4096x32_0_1 (broadcastInDim S1x32 ![1] bcast_S32_S1x32_1 l2b)))
  let h3 : (⟨S4096x1, .f32⟩ : BufTy).Contents (Elt F) :=
    addf (Host.dotGeneral dot_S4096x32_S32x1_S4096x1_1_0_0_1_n_n none h2 (transpose S32x1 [1, 0] l3w transposes_S1x32_S32x1_1_0))
      (broadcastInDim S4096x1 ![0, 1] bcast_S1x1_S4096x1_0_1 (broadcastInDim S1x1 ![1] bcast_S1_S1x1_1 l3b))
  let half : (⟨S4096x1, .f32⟩ : BufTy).Contents (Elt F) := broadcastInDim S4096x1 ![] bcast_S_S4096x1 (constant (F := F) S_ .f32 0x3F000000#32)
  addf h3 (mulf (addf wpsqt bpsqt) (subf stm half))

end Cert.FT

end
-- ==== Proof.TailKernel.lean ====
/-
  The kernel program's result, read.  After the call the program runs, on the host, the chain of operations
  named `ffnTail` — on the two arrays the call wrote and on the arguments the call did not touch.  Whatever the
  buffers hold when that chain starts, its last buffer ends at `ffnTail` of those contents; at the contents the
  call leaves (its two output arrays as the pipeline's proof data states them, every other buffer as the region
  found it) this is the statement that the program's result is `ffnTail` of the two output arrays and the
  arguments.
-/
import proofs.«113688_j71141838291202_1_alg».proof.Proof.Tail
import proofs.«113688_j71141838291202_1_alg».proof.Proof.Gen.KernelIdeal.Frame
import Idealize.ShloMosaic.Lib.StableHlo.Run

noncomputable section

namespace Cert.FT

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

set_option maxRecDepth 8192 in
set_option maxHeartbeats 16000000 in
/-- The host operations after the call, from any buffer contents `Wv`: the result buffer ends at `ffnTail` of
    `Wv` at the call's two result buffers and at the seven arguments the tail reads. -/
theorem tail_after (Wv : Valuation τ sig (Elt F)) :
    StableHlo.after (List.flatten ([hostOps1, hostOps1_1, hostOps1_2, hostOps1_3, hostOps1_4, hostOps1_5, hostOps1_6] : List (List (HloOp τ sig (Elt F))))) Wv (Proc.devRef .tc main_v38)
      = ffnTail (F := F) (Wv (Proc.devRef .tc main_v2_0)) (Wv (Proc.devRef .tc main_v2_1)) (Wv (Proc.devRef .tc main_arg2))
          (Wv (Proc.devRef .tc main_arg5)) (Wv (Proc.devRef .tc main_arg6)) (Wv (Proc.devRef .tc main_arg7))
          (Wv (Proc.devRef .tc main_arg8)) (Wv (Proc.devRef .tc main_arg9)) (Wv (Proc.devRef .tc main_arg10)) := by
  simp only [hostOps1, hostOps1_1, hostOps1_2, hostOps1_3, hostOps1_4, hostOps1_5, hostOps1_6, List.flatten_cons, List.flatten_nil,
    List.append_nil, List.cons_append, List.nil_append]
  after_results_simp
  rfl

variable (m : (ℓ : Loc nD τ sig) → Buf (Elt F) ℓ)

/-- The kernel program's result is `ffnTail` of the call's two output arrays and the arguments. -/
theorem kernel_result (c : Dev nD) :
    Pipeline.afterTail₀ cfgs (dats m) 0 (V0 m) [hostOps1, hostOps1_1, hostOps1_2, hostOps1_3, hostOps1_4, hostOps1_5, hostOps1_6] c main_v38
      = ffnTail (F := F) ((dats m 0 c).arrAt 4 cfg0.N) ((dats m 0 c).arrAt 5 cfg0.N) (m ((c : Thread nD τ).loc main_arg2))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  unfold Pipeline.afterTail₀
  refine (tail_after _).trans ?_
  have e4 : Pipeline.withArrays (cfgs 0).spec c (V0 m c) (fun w => (dats m 0 c).arrAt w (cfgs 0).N) (Proc.devRef .tc main_v2_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v2_1)
      = (dats m 0 c).arrAt 5 cfg0.N := Pipeline.withArrays_arr spec0 launch0.win.arr_inj c _ _ 5
  have a2 : Pipeline.withArrays (cfgs 0).spec c (V0 m c) (fun w => (dats m 0 c).arrAt w (cfgs 0).N) (Proc.devRef .tc main_arg2)
      = m ((c : Thread nD τ).loc main_arg2) := (Pipeline.withArrays_of_ne spec0 c _ _ main_arg2 (by decide)).trans (V_main_arg2 m c)
  have a5 : Pipeline.withArrays (cfgs 0).spec c (V0 m c) (fun w => (dats m 0 c).arrAt w (cfgs 0).N) (Proc.devRef .tc main_arg5)
      = m ((c : Thread nD τ).loc main_arg5) := (Pipeline.withArrays_of_ne spec0 c _ _ main_arg5 (by decide)).trans (V_main_arg5 m c)
  have a6 : Pipeline.withArrays (cfgs 0).spec c (V0 m c) (fun w => (dats m 0 c).arrAt w (cfgs 0).N) (Proc.devRef .tc main_arg6)
      = m ((c : Thread nD τ).loc main_arg6) := (Pipeline.withArrays_of_ne spec0 c _ _ main_arg6 (by decide)).trans (V_main_arg6 m c)
  have a7 : Pipeline.withArrays (cfgs 0).spec c (V0 m c) (fun w => (dats m 0 c).arrAt w (cfgs 0).N) (Proc.devRef .tc main_arg7)
      = m ((c : Thread nD τ).loc main_arg7) := (Pipeline.withArrays_of_ne spec0 c _ _ main_arg7 (by decide)).trans (V_main_arg7 m c)
  have a8 : Pipeline.withArrays (cfgs 0).spec c (V0 m c) (fun w => (dats m 0 c).arrAt w (cfgs 0).N) (Proc.devRef .tc main_arg8)
      = m ((c : Thread nD τ).loc main_arg8) := (Pipeline.withArrays_of_ne spec0 c _ _ main_arg8 (by decide)).trans (V_main_arg8 m c)
  have a9 : Pipeline.withArrays (cfgs 0).spec c (V0 m c) (fun w => (dats m 0 c).arrAt w (cfgs 0).N) (Proc.devRef .tc main_arg9)
      = m ((c : Thread nD τ).loc main_arg9) := (Pipeline.withArrays_of_ne spec0 c _ _ main_arg9 (by decide)).trans (V_main_arg9 m c)
  have a10 : Pipeline.withArrays (cfgs 0).spec c (V0 m c) (fun w => (dats m 0 c).arrAt w (cfgs 0).N) (Proc.devRef .tc main_arg10)
      = m ((c : Thread nD τ).loc main_arg10) := (Pipeline.withArrays_of_ne spec0 c _ _ main_arg10 (by decide)).trans (V_main_arg10 m c)
  rw [e4, e5, a2, a5, a6, a7, a8, a9, a10]

end Cert.FT

end
-- ==== Proof.KernelRun.lean ====
/-
  The kernel program's run at the exact instance, with its result named: every weakly fair execution terminates
  with the result array at the network `ffnTail` of the two feature-transformer outputs `ftOut` (each the whole
  contraction of a feature matrix against the weight matrix, plus the bias) and the remaining arguments, and with
  every argument array unchanged.  The termination, the absence of faults and the unchanged arguments are the
  generated frame run's; named here is what its post says the result holds: the host operations after the call
  applied to what the call wrote, and what the call wrote is `ftOut`.
-/
import proofs.«113688_j71141838291202_1_alg».proof.Proof.Final
import proofs.«113688_j71141838291202_1_alg».proof.Proof.TailKernel

noncomputable section

namespace Cert.FT

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel program's result on core `c`, as a function of the argument arrays. -/
def kernelResult (c : Dev nD) : Buf (Elt Ideal) ((c.tc : Thread nD τ).loc main_v38) :=
  ffnTail (F := Ideal) (ftOut (m ((c : Thread nD τ).loc main_arg0)) (m ((c : Thread nD τ).loc main_arg3)) (m ((c : Thread nD τ).loc main_arg4))) (ftOut (m ((c : Thread nD τ).loc main_arg1)) (m ((c : Thread nD τ).loc main_arg3)) (m ((c : Thread nD τ).loc main_arg4))) (m ((c : Thread nD τ).loc main_arg2))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem kernel_run : θ_run defs (onTc (τ := τ) (main (F := Ideal))) ⟨m, fun _ => 0, ρ⟩ (fun r => ∀ c : Dev nD,
      r.2.mem ((c.tc : Thread nD τ).loc main_v38) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v38 (Pipeline.mem_restRefs_of main_v38 (by decide) (by decide))).trans
        ((kernel_result m c).trans (by rw [final4, final5]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.FT

end
-- ==== Proof.RefSide.lean ====
/-
  The reference program, read.  Its first ten operations compute, for each feature matrix, the contraction
  against the transposed weight matrix as ONE product over all 40960 features, plus the bias broadcast over the
  rows: at an index that is the feature transformer's output `ftOut`.  Everything after that is the chain
  `ffnTail` of those two arrays and the remaining arguments — the same operations, in the same order, with the
  same three literals (1, 0 and 1/2), as the kernel program runs after its call.
-/
import proofs.«113688_j71141838291202_1_alg».proof.Proof.Gen.ReferenceIdeal.Read
import proofs.«113688_j71141838291202_1_alg».proof.Proof.Tail
import proofs.«113688_j71141838291202_1_alg».proof.Proof.Chain

noncomputable section

namespace Cert.FT

open Idealize.ShloMosaic Idealize.ShloMosaic.TcCoe Idealize.ShloMosaic.ValueIdx Idealize.SL.Sem

/-- The reference's first affine stage at an index: the whole contraction plus the bias. -/
theorem ref_wp (x0 : FVec Ideal Cert.KernelIdeal.S4096x40960 .f32) (x3 : FVec Ideal Cert.KernelIdeal.S257x40960 .f32)
    (x4 : FVec Ideal Cert.KernelIdeal.S257 .f32) :
    Cert.ReferenceIdeal.Read.val_main_v4 (F := Ideal) x0 x3 x4 = ftOut x0 x3 x4 := by
  funext i
  have el : ∀ k : Fin 40960, Cert.ReferenceIdeal.Read.lidx_main_v1 i k = ix2 (i 0) k := fun k =>
    funext fun a => by match a with | ⟨0, _⟩ => rfl | ⟨1, _⟩ => rfl
  have er : ∀ k : Fin 40960, Cert.ReferenceIdeal.Read.idx_main_v0 (Cert.ReferenceIdeal.Read.ridx_main_v1 i k) = ix2 (i 1) k := fun k =>
    funext fun a => by match a with | ⟨0, _⟩ => rfl | ⟨1, _⟩ => rfl
  have eb : Cert.ReferenceIdeal.Read.idx_main_v2 (Cert.ReferenceIdeal.Read.idx_main_v3 i) = ix1 (i 1) :=
    funext fun a => by match a with | ⟨0, _⟩ => rfl
  rw [Cert.ReferenceIdeal.Read.val_main_v4_apply, Cert.ReferenceIdeal.Read.val_main_v1_apply, Cert.ReferenceIdeal.Read.val_main_v3_apply, Cert.ReferenceIdeal.Read.val_main_v2_apply]
  simp only [Cert.ReferenceIdeal.Read.val_main_v0_apply, el, er, eb]
  rfl

/-- The same for the second feature matrix. -/
theorem ref_bp (x1 : FVec Ideal Cert.KernelIdeal.S4096x40960 .f32) (x3 : FVec Ideal Cert.KernelIdeal.S257x40960 .f32)
    (x4 : FVec Ideal Cert.KernelIdeal.S257 .f32) :
    Cert.ReferenceIdeal.Read.val_main_v9 (F := Ideal) x1 x3 x4 = ftOut x1 x3 x4 := by
  funext i
  have el : ∀ k : Fin 40960, Cert.ReferenceIdeal.Read.lidx_main_v6 i k = ix2 (i 0) k := fun k =>
    funext fun a => by match a with | ⟨0, _⟩ => rfl | ⟨1, _⟩ => rfl
  have er : ∀ k : Fin 40960, Cert.ReferenceIdeal.Read.idx_main_v5 (Cert.ReferenceIdeal.Read.ridx_main_v6 i k) = ix2 (i 1) k := fun k =>
    funext fun a => by match a with | ⟨0, _⟩ => rfl | ⟨1, _⟩ => rfl
  have eb : Cert.ReferenceIdeal.Read.idx_main_v7 (Cert.ReferenceIdeal.Read.idx_main_v8 i) = ix1 (i 1) :=
    funext fun a => by match a with | ⟨0, _⟩ => rfl
  rw [Cert.ReferenceIdeal.Read.val_main_v9_apply, Cert.ReferenceIdeal.Read.val_main_v6_apply, Cert.ReferenceIdeal.Read.val_main_v8_apply, Cert.ReferenceIdeal.Read.val_main_v7_apply]
  simp only [Cert.ReferenceIdeal.Read.val_main_v5_apply, el, er, eb]
  rfl

variable {F : FTy → Type} [FloatOps F]

set_option maxRecDepth 8192 in
set_option maxHeartbeats 4000000 in
/-- The reference's result stage is `ffnTail` of its two affine stages and the remaining arguments. -/
theorem ref_tail (x0 x1 : (⟨Cert.ReferenceIdeal.S4096x40960, .f32⟩ : BufTy).Contents (Elt F)) (x2 : (⟨Cert.ReferenceIdeal.S4096x1, .f32⟩ : BufTy).Contents (Elt F))
    (x3 : (⟨Cert.ReferenceIdeal.S257x40960, .f32⟩ : BufTy).Contents (Elt F)) (x4 : (⟨Cert.ReferenceIdeal.S257, .f32⟩ : BufTy).Contents (Elt F))
    (x5 : (⟨Cert.ReferenceIdeal.S32x512, .f32⟩ : BufTy).Contents (Elt F)) (x6 : (⟨Cert.ReferenceIdeal.S32, .f32⟩ : BufTy).Contents (Elt F))
    (x7 : (⟨Cert.ReferenceIdeal.S32x32, .f32⟩ : BufTy).Contents (Elt F)) (x8 : (⟨Cert.ReferenceIdeal.S32, .f32⟩ : BufTy).Contents (Elt F))
    (x9 : (⟨Cert.ReferenceIdeal.S1x32, .f32⟩ : BufTy).Contents (Elt F)) (x10 : (⟨Cert.ReferenceIdeal.S1, .f32⟩ : BufTy).Contents (Elt F)) :
    Cert.ReferenceIdeal.Read.val_main_v45 (F := F) x0 x1 x2 x3 x4 x5 x6 x7 x8 x9 x10
      = ffnTail (F := F) (Cert.ReferenceIdeal.Read.val_main_v4 (F := F) x0 x3 x4) (Cert.ReferenceIdeal.Read.val_main_v9 (F := F) x1 x3 x4) x2 x5 x6 x7 x8 x9 x10 := by
  rfl

end Cert.FT

end
-- ==== Proof.lean ====
/-
  An NNUE-style evaluation: two feature matrices (4096 positions × 40960 features) go through one shared affine
  feature transformer (weights 257 × 40960, bias 257), and a small network combines the two results.

  The kernel computes each feature-transformer output block by block: the grid has two row tiles and, per tile,
  eighty feature steps of 512 features; an accumulator is zeroed at a tile's first step, takes one block product
  per step, and at the last step the accumulator plus the bias row is written out.  The reference computes the
  same output as ONE contraction over all 40960 features plus the bias.  Over the extended reals the casts to
  bf16 around the kernel's products are the identity and every product and sum is exact, so the two differ only
  in how one finite sum is grouped: eighty blocks of 512 terms against 40960 terms at once.  Addition of extended
  reals is commutative and associative, which is all that regrouping needs — no entry has to be finite, so the
  precondition is never opened.  After the feature transformer both programs run the same chain of operations
  with the same literals; it is named as one function and never opened.

    frame_Kernel, frame_KernelIdeal   the generated frame runs (the body run once per case of its two conditionals);
    frame_ReferenceIdeal              the reference's generated run with its result dropped;
    preserves_Kernel_KernelIdeal      the idealization rewrote nothing: `True`;
    algebraic_KernelIdeal_ReferenceIdeal
        kernel: the accumulators hold the first `s + 1` blocks after feature step `s` (induction on the grid
        point), so each output array ends at the whole contraction plus the bias, and the result at the network
        of those; reference: its first stages read at an index are that same contraction plus bias, and its
        result the same network of them.
-/
import proofs.«113688_j71141838291202_1_alg».proof.Defs
import proofs.«113688_j71141838291202_1_alg».proof.Proof.Gen.Kernel
import proofs.«113688_j71141838291202_1_alg».proof.Proof.Gen.Kernel.Skeleton
import proofs.«113688_j71141838291202_1_alg».proof.Proof.Gen.Kernel.Launch
import proofs.«113688_j71141838291202_1_alg».proof.Proof.Gen.Kernel.Points
import proofs.«113688_j71141838291202_1_alg».proof.Proof.Gen.Kernel.Frame
import proofs.«113688_j71141838291202_1_alg».proof.Proof.Gen.KernelIdeal
import proofs.«113688_j71141838291202_1_alg».proof.Proof.Gen.KernelIdeal.Skeleton
import proofs.«113688_j71141838291202_1_alg».proof.Proof.Gen.KernelIdeal.Launch
import proofs.«113688_j71141838291202_1_alg».proof.Proof.Gen.KernelIdeal.Points
import proofs.«113688_j71141838291202_1_alg».proof.Proof.Gen.KernelIdeal.Frame
import proofs.«113688_j71141838291202_1_alg».proof.Proof.Gen.ReferenceIdeal
import proofs.«113688_j71141838291202_1_alg».proof.Proof.Gen.Pre_finite_inputs
import proofs.«113688_j71141838291202_1_alg».proof.Proof.Gen.ReferenceIdeal.Run
import proofs.«113688_j71141838291202_1_alg».proof.Proof.Gen.ReferenceIdeal.Read
import proofs.«113688_j71141838291202_1_alg».proof.Proof.KernelRun
import proofs.«113688_j71141838291202_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the network `ffnTail` of the two
    feature-transformer outputs: the kernel's blockwise accumulation and the reference's single contraction are
    one sum, grouped two ways. -/
theorem algebraic : Cert.algebraic_KernelIdeal_ReferenceIdeal := by
  intro m ρ m' ρ' _ hagree
  refine ⟨fun c => Cert.FT.kernelResult m c, Cert.FT.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v45_eq, Cert.FT.ref_tail, Cert.FT.ref_wp, Cert.FT.ref_bp,
    a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
